-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x1x64 : Shape := ⟨3, ![50000, 1, 64]⟩
abbrev S1000000 : Shape := ⟨1, ![1000000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x1x64 : S_.BroadcastsInDim S50000x1x64 (![] : Fin 0 → Fin S50000x1x64.rank)
  reducesTo_S50000x1x64_S_d0_1_2 : S50000x1x64.ReducesTo [0, 1, 2] S_

variable [Facts]

def fn_part1 {F : FTy → Type} [FloatOps F] (main_v13 : IVec S_ 1) (main_v16 : IVec S50000x1x64 1) : IVec S_ 1 :=
  let main_c_5 : IVec S_ 1 := constantI S_ 1 1#1
  let main_v17 : IVec S_ 1 := (fun x v => Host.reduce IntOp.andi x v reducesTo_S50000x1x64_S_d0_1_2 h_S_) main_v16 main_c_5
  let main_v18 : IVec S_ 1 := andi main_v13 main_v17
  main_v18

def fn {F : FTy → Type} [FloatOps F] (main_arg0 : FVec F S50000x64 .f32) (main_arg1 : FVec F S50000x64 .f32) (main_arg2 : FVec F S50000x64 .f32) (main_arg3 : FVec F S50000x1x64 .f32) (main_arg4 : IVec S1000000 32) (main_arg5 : IVec S1000000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S50000x64 .f32 := Host.absf main_arg2
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S50000x1x64 .f32 := Host.absf main_arg3
  let main_cst_4 : FVec F S_ .f32 := constant S_ .f32 0x7F800000#32
  let main_v15 : FVec F S50000x1x64 .f32 := broadcastInDim S50000x1x64 ![] bcast_S_S50000x1x64 main_cst_4
  let main_v16 : IVec S50000x1x64 1 := cmpf .olt main_v14 main_v15
  fn_part1 (F := F) main_v13 main_v16
-- ==== Kernel.lean ====
abbrev S50000x64 : Shape := ⟨2, ![50000, 64]⟩
abbrev S50000x1x64 : Shape := ⟨3, ![50000, 1, 64]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S4000x64 : Shape := ⟨2, ![4000, 64]⟩
abbrev S4000 : Shape := ⟨1, ![4000]⟩
abbrev S4000x1 : Shape := ⟨2, ![4000, 1]⟩
abbrev S1000000x1x64 : Shape := ⟨3, ![1000000, 1, 64]⟩

abbrev nBuf : Space → Nat
  | .hbm => 54
  | .vmem => 12
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S50000x64, .f32⟩
  | .hbm, ⟨3, _⟩ => ⟨S50000x1x64, .f32⟩
  | .hbm, ⟨4, _⟩ => ⟨S1000000, .i32⟩
  | .hbm, ⟨5, _⟩ => ⟨S1000000, .i32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x64, .f32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x64, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x64, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1000000x64, .f32⟩
  | .hbm, ⟨42, _⟩ => ⟨S50000x64, .f32⟩
  | .hbm, ⟨43, _⟩ => ⟨S_, .i32⟩
  | .hbm, ⟨44, _⟩ => ⟨S1000000, .i32⟩
  | .hbm, ⟨45, _⟩ => ⟨S1000000, .i1⟩
  | .hbm, ⟨46, _⟩ => ⟨S_, .i32⟩
  | .hbm, ⟨47, _⟩ => ⟨S1000000, .i32⟩
  | .hbm, ⟨48, _⟩ => ⟨S1000000, .i32⟩
  | .hbm, ⟨49, _⟩ => ⟨S1000000, .i32⟩
  | .hbm, ⟨50, _⟩ => ⟨S1000000x1, .i32⟩
  | .hbm, ⟨51, _⟩ => ⟨S1000000x64, .f32⟩
  | .hbm, ⟨52, _⟩ => ⟨S1000000x64, .f32⟩
  | .hbm, ⟨53, _⟩ => ⟨S1000000x1x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S50000x1x64_S50000x64 : S50000x1x64.ShapeCasts S50000x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  reduces_S4000x64_S4000 : S4000x64.Reduces [1] S4000
  shapeCasts_S4000_S4000x1 : S4000.ShapeCasts S4000x1
  broadcasts_S4000x1_S4000x64 : S4000x1.Broadcasts S4000x64
  bcast_S1000000x64_S1000000x1x64_0_2 : S1000000x64.BroadcastsInDim S1000000x1x64 (![0, 2] : Fin 2 → Fin S1000000x1x64.rank)
  gather_S50000x64_S1000000x1_S1000000x64_1_0_n_n_0_1_164_wf : GatherDims.WF S50000x64 S1000000x1 S1000000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1000000x64.size a
  hwx0_0 : ∀ i : grid0.Coords, EltTy.bits .f32 = 32 ∨ (Rect.block (s := S1000000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S1000000x64.size a
  hwx0_1 : ∀ i : grid0.Coords, EltTy.bits .f32 = 32 ∨ (Rect.block (s := S1000000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S1000000x64.size a
  hwx0_2 : ∀ i : grid0.Coords, EltTy.bits .f32 = 32 ∨ (Rect.block (s := S1000000x64) S4000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S1000000x64.size a
  hwx0_3 : ∀ i : grid0.Coords, EltTy.bits .f32 = 32 ∨ (Rect.block (s := S1000000x64) S4000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x64.size a ≤ S1000000x64.size a
  hwx0_4 : ∀ i : grid0.Coords, EltTy.bits .f32 = 32 ∨ (Rect.block (s := S1000000x64) S4000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S1000000x64.size a
  hwx0_5 : ∀ i : grid0.Coords, EltTy.bits .f32 = 32 ∨ (Rect.block (s := S1000000x64) S4000x64.size (cc0_transform_5 i) (hinb0_5 i)).WholeWords (EltTy.packing .f32)

variable [Facts₀]

def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf

abbrev win0_0 : Pipeline.Window sig grid0 :=
  Pipeline.Window.ofSpec (Memref.whole main_v6) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S4000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v35) S4000x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v36) S4000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x64 : Shape := ⟨2, ![50000, 64]⟩
abbrev S50000x1x64 : Shape := ⟨3, ![50000, 1, 64]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1000000x1x1 : Shape := ⟨3, ![1000000, 1, 1]⟩
abbrev S1000000x1x64 : Shape := ⟨3, ![1000000, 1, 64]⟩

abbrev nBuf : Space → Nat
  | .hbm => 91
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S50000x64, .f32⟩
  | .hbm, ⟨3, _⟩ => ⟨S50000x1x64, .f32⟩
  | .hbm, ⟨4, _⟩ => ⟨S1000000, .i32⟩
  | .hbm, ⟨5, _⟩ => ⟨S1000000, .i32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x64, .f32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x64, .f32⟩
  | .hbm, ⟨24, _⟩ => ⟨S1000000x64, .f32⟩
  | .hbm, ⟨25, _⟩ => ⟨S1000000x64, .f32⟩
  | .hbm, ⟨26, _⟩ => ⟨S_, .f32⟩
  | .hbm, ⟨27, _⟩ => ⟨S1000000, .f32⟩
  | .hbm, ⟨28, _⟩ => ⟨S_, .f32⟩
  | .hbm, ⟨29, _⟩ => ⟨S1000000, .f32⟩
  | .hbm, ⟨30, _⟩ => ⟨S1000000, .f32⟩
  | .hbm, ⟨31, _⟩ => ⟨S1000000, .f32⟩
  | .hbm, ⟨32, _⟩ => ⟨S1000000, .f32⟩
  | .hbm, ⟨33, _⟩ => ⟨S_, .f32⟩
  | .hbm, ⟨34, _⟩ => ⟨S1000000, .f32⟩
  | .hbm, ⟨35, _⟩ => ⟨S1000000, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1000000, .f32⟩
  | .hbm, ⟨40, _⟩ => ⟨S1000000, .f32⟩
  | .hbm, ⟨41, _⟩ => ⟨S_, .f32⟩
  | .hbm, ⟨42, _⟩ => ⟨S1000000, .f32⟩
  | .hbm, ⟨43, _⟩ => ⟨S1000000, .f32⟩
  | .hbm, ⟨44, _⟩ => ⟨S1000000, .f32⟩
  | .hbm, ⟨45, _⟩ => ⟨S_, .i32⟩
  | .hbm, ⟨46, _⟩ => ⟨S1000000, .i32⟩
  | .hbm, ⟨47, _⟩ => ⟨S1000000, .i1⟩
  | .hbm, ⟨48, _⟩ => ⟨S_, .i32⟩
  | .hbm, ⟨49, _⟩ => ⟨S1000000, .i32⟩
  | .hbm, ⟨50, _⟩ => ⟨S1000000, .i32⟩
  | .hbm, ⟨51, _⟩ => ⟨S1000000, .i32⟩
  | .hbm, ⟨52, _⟩ => ⟨S1000000x1, .i32⟩
  | .hbm, ⟨53, _⟩ => ⟨S1000000x64, .f32⟩
  | .hbm, ⟨54, _⟩ => ⟨S_, .i32⟩
  | .hbm, ⟨55, _⟩ => ⟨S1000000, .i32⟩
  | .hbm, ⟨56, _⟩ => ⟨S1000000, .i1⟩
  | .hbm, ⟨57, _⟩ => ⟨S_, .i32⟩
  | .hbm, ⟨58, _⟩ => ⟨S1000000, .i32⟩
  | .hbm, ⟨59, _⟩ => ⟨S1000000, .i32⟩
  | .hbm, ⟨60, _⟩ => ⟨S1000000, .i32⟩
  | .hbm, ⟨61, _⟩ => ⟨S1000000x1, .i32⟩
  | .hbm, ⟨62, _⟩ => ⟨S1000000x64, .f32⟩
  | .hbm, ⟨63, _⟩ => ⟨S1000000x64, .f32⟩
  | .hbm, ⟨64, _⟩ => ⟨S_, .f32⟩
  | .hbm, ⟨65, _⟩ => ⟨S1000000, .f32⟩
  | .hbm, ⟨66, _⟩ => ⟨S_, .f32⟩
  | .hbm, ⟨67, _⟩ => ⟨S1000000, .f32⟩
  | .hbm, ⟨68, _⟩ => ⟨S1000000, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S1000000, .f32⟩
  | .hbm, ⟨73, _⟩ => ⟨S1000000, .f32⟩
  | .hbm, ⟨74, _⟩ => ⟨S_, .f32⟩
  | .hbm, ⟨75, _⟩ => ⟨S1000000, .f32⟩
  | .hbm, ⟨76, _⟩ => ⟨S1000000, .f32⟩
  | .hbm, ⟨77, _⟩ => ⟨S1000000, .f32⟩
  | .hbm, ⟨78, _⟩ => ⟨S1000000, .f32⟩
  | .hbm, ⟨79, _⟩ => ⟨S1000000x1x1, .f32⟩
  | .hbm, ⟨80, _⟩ => ⟨S_, .i32⟩
  | .hbm, ⟨81, _⟩ => ⟨S1000000, .i32⟩
  | .hbm, ⟨82, _⟩ => ⟨S1000000, .i1⟩
  | .hbm, ⟨83, _⟩ => ⟨S_, .i32⟩
  | .hbm, ⟨84, _⟩ => ⟨S1000000, .i32⟩
  | .hbm, ⟨85, _⟩ => ⟨S1000000, .i32⟩
  | .hbm, ⟨86, _⟩ => ⟨S1000000, .i32⟩
  | .hbm, ⟨87, _⟩ => ⟨S1000000x1, .i32⟩
  | .hbm, ⟨88, _⟩ => ⟨S1000000x1x64, .f32⟩
  | .hbm, ⟨89, _⟩ => ⟨S1000000x1x64, .f32⟩
  | .hbm, ⟨90, _⟩ => ⟨S1000000x1x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_cst_6 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v23 : Ref sig .tc := ⟨.hbm, 43, rfl⟩
abbrev main_v24 : Ref sig .tc := ⟨.hbm, 44, rfl⟩
abbrev main_c_7 : Ref sig .tc := ⟨.hbm, 45, rfl⟩
abbrev main_v25 : Ref sig .tc := ⟨.hbm, 46, rfl⟩
abbrev main_v26 : Ref sig .tc := ⟨.hbm, 47, rfl⟩
abbrev main_c_8 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_9 : Ref sig .tc := ⟨.hbm, 54, rfl⟩
abbrev main_v32 : Ref sig .tc := ⟨.hbm, 55, rfl⟩
abbrev main_v33 : Ref sig .tc := ⟨.hbm, 56, rfl⟩
abbrev main_c_10 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_11 : Ref sig .tc := ⟨.hbm, 64, rfl⟩
abbrev main_v40 : Ref sig .tc := ⟨.hbm, 65, rfl⟩
abbrev main_cst_12 : Ref sig .tc := ⟨.hbm, 66, rfl⟩
abbrev main_v41 : Ref sig .tc := ⟨.hbm, 67, rfl⟩
abbrev main_v42 : Ref sig .tc := ⟨.hbm, 68, rfl⟩
abbrev main_cst_13 : Ref sig .tc := ⟨.hbm, 69, rfl⟩
abbrev main_cst_14 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_15 : Ref sig .tc := ⟨.hbm, 80, rfl⟩
abbrev main_v47 : Ref sig .tc := ⟨.hbm, 81, rfl⟩
abbrev main_v48 : Ref sig .tc := ⟨.hbm, 82, rfl⟩
abbrev main_c_16 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  reducesTo_S1000000x64_S1000000_d1 : S1000000x64.ReducesTo [1] S1000000
  h_S_ : 0 < S_.numel
  bcast_S1000000_S1000000x1x1_0 : S1000000.BroadcastsInDim S1000000x1x1 (![0] : Fin 1 → Fin S1000000x1x1.rank)
  bcast_S1000000x1x1_S1000000x1x64_0_1_2 : S1000000x1x1.BroadcastsInDim S1000000x1x64 (![0, 1, 2] : Fin 3 → Fin S1000000x1x64.rank)
  gather_S50000x64_S1000000x1_S1000000x64_1_0_n_n_0_1_164_wf : GatherDims.WF S50000x64 S1000000x1 S1000000x64 [1] [0] [] [0] [] 1 ![1, 64]
  gather_S50000x1x64_S1000000x1_S1000000x1x64_12_0_n_n_0_1_1164_wf : GatherDims.WF S50000x1x64 S1000000x1 S1000000x1x64 [1, 2] [0] [] [0] [] 1 ![1, 1, 64]

variable [Facts₀]

def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def gather_S50000x1x64_S1000000x1_S1000000x1x64_12_0_n_n_0_1_1164 : GatherDims S50000x1x64 S1000000x1 S1000000x1x64 where
  offsetDims := [1, 2]
  collapsedSliceDims := [0]
  operandBatchingDims := []
  startIndicesBatchingDims := []
  startIndexMap := [0]
  indexVectorDim := 1
  sliceSizes := ![1, 1, 64]
  wf := gather_S50000x1x64_S1000000x1_S1000000x1x64_12_0_n_n_0_1_1164_wf

class Facts : Prop extends Facts₀ where

variable [Facts]
-- ==== Proof.LibColumnBroadcast.lean ====
/-
  A column broadcast along rows, read at an index: the companion of the library's one-row form
  (`broadcastTo_1b_ab_apply`, one row repeated down the rows) for one COLUMN repeated across the columns.
-/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.Spec.lean ====
/-
  The message an edge carries, as a function of five row tables over the extended reals.

  For an edge `e` with the source's and the target's geometry rows `a e`, `b e`, the source's key row `k e`, the
  target's query row `q e` and the source's value row `v e` (64 numbers each):

    score    = Σ_j k(e, j) · q(e, j)                      distance = −√(Σ_j (a(e, j) − b(e, j))² + ε)
    clampExp s = exp (min 5 (max (−5) (s · 1/8)))         weight   = clampExp score · clampExp distance
    message(e, 0, d) = weight · v(e, d)

  The three literals 5, −5 and 1/8 and the ε under the root are kept as the binary32 words both programs print
  (0x40A00000, 0xC0A00000, 0x3E000000, 0x358637BD): the same word on both sides is never evaluated.
-/
import Idealize.ShloMosaic.PureOps.Ideal
import Idealize.ShloMosaic.Lib.ValueIdx

noncomputable section

open scoped BigOperators

namespace Cert.EdgeMessage

open Idealize.ShloMosaic Idealize.ShloMosaic.ValueIdx

/-- A score scaled by 1/8, clamped into [−5, 5], exponentiated. -/
def clampExp (s : EReal) : EReal :=
  Ideal.exp (min (Ideal.ofBits .f32 0x40A00000#32)
    (max (Ideal.ofBits .f32 0xC0A00000#32) (s * Ideal.ofBits .f32 0x3E000000#32)))

/-- Row `e` of `k` against row `e` of `q`: the sum of the 64 products. -/
def score {n : Nat} (k q : (⟨2, ![n, 64]⟩ : Shape).Idx → EReal) (e : Fin n) : EReal :=
  ∑ j : Fin 64, k (ix2 e j) * q (ix2 e j)

/-- The squared distance between row `e` of `a` and row `e` of `b`. -/
def sqDist {n : Nat} (a b : (⟨2, ![n, 64]⟩ : Shape).Idx → EReal) (e : Fin n) : EReal :=
  ∑ j : Fin 64, (a (ix2 e j) - b (ix2 e j)) * (a (ix2 e j) - b (ix2 e j))

/-- The edge's weight: `clampExp` of the score times `clampExp` of the negative distance. -/
def weight {n : Nat} (a b k q : (⟨2, ![n, 64]⟩ : Shape).Idx → EReal) (e : Fin n) : EReal :=
  clampExp (score k q e) * clampExp (-(Ideal.sqrt (sqDist a b e + Ideal.ofBits .f32 0x358637BD#32)))

/-- The weight of row `p` of one family of tables is the weight of row `e` of another when the rows agree entry by
    entry: a block of rows cut out of the tables weighs what the tables weigh there. -/
theorem weight_congr {n n' : Nat} (a b k q : (⟨2, ![n, 64]⟩ : Shape).Idx → EReal)
    (a' b' k' q' : (⟨2, ![n', 64]⟩ : Shape).Idx → EReal) (p : Fin n) (e : Fin n')
    (ha : ∀ j : Fin 64, a (ix2 p j) = a' (ix2 e j)) (hb : ∀ j : Fin 64, b (ix2 p j) = b' (ix2 e j))
    (hk : ∀ j : Fin 64, k (ix2 p j) = k' (ix2 e j)) (hq : ∀ j : Fin 64, q (ix2 p j) = q' (ix2 e j)) :
    weight a b k q p = weight a' b' k' q' e := by
  unfold weight score sqDist
  simp only [ha, hb, hk, hq]

/-- The messages as an `[n, 64]` table: each edge's value row scaled by the edge's weight. -/
def rows {n : Nat} (a b k q v : (⟨2, ![n, 64]⟩ : Shape).Idx → EReal) : (⟨2, ![n, 64]⟩ : Shape).Idx → EReal :=
  fun i => weight a b k q (i 0) * v (ix2 (i 0) (i 1))

/-- The message array `[n, 1, 64]`: the table with a unit axis between the edge and the feature. -/
def message {n : Nat} (a b k q v : (⟨2, ![n, 64]⟩ : Shape).Idx → EReal) : (⟨3, ![n, 1, 64]⟩ : Shape).Idx → EReal :=
  fun i => weight a b k q (i 0) * v (ix2 (i 0) (i 2))

end Cert.EdgeMessage

end
-- ==== Proof.KernelBody.lean ====
/-
  What the body computes at one grid point, entry by entry: for the five loaded blocks of 4000 rows
  (source geometry, target geometry, source keys, target queries, source values) the stored block holds, at row `p`
  and column `d`, the edge weight of row `p` times the value at `(p, d)`.

  The body's sums over the 64 columns are lane reductions kept as one-column arrays (`keepdims`): a reduction to
  `[4000]`, a cast to the column `[4000, 1]`, the arithmetic on the column, and at the end the column repeated across the
  64 lanes. Read at `(p, d)` these are the row's sum, the column at `(p, 0)` and the column again. The body negates the
  distance as `0 − √·`; over the extended reals that is `−√·`.
-/
import proofs.«110923_j73418170958215_2_alg».proof.Proof.Gen.KernelIdeal.Skeleton
import proofs.«110923_j73418170958215_2_alg».proof.Proof.LibColumnBroadcast
import proofs.«110923_j73418170958215_2_alg».proof.Proof.LibKeepdimsColumn
import proofs.«110923_j73418170958215_2_alg».proof.Proof.Spec
import Idealize.ShloMosaic.PureOps.Ideal.Laws
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx Cert.LibKeepdims Cert.EdgeMessage

/-- A lane reduction of a `[4000, 64]` block read at row `p`: the sum of the row's 64 entries. -/
theorem rowSum_apply (v : FVec Ideal S4000x64 .f32) (h : S4000x64.Reduces [1] S4000) (hφ : FKind.Formats .f32)
    (hacc : (0x00000000#32 : BitVec FTy.f32.bits) = FKind.add.neutral .f32 hφ) (p : Fin 4000) :
    multiReduction .add [1] S4000 v 0x00000000#32 h hφ hacc (ix1 p) = ∑ j : Fin 64, v (ix2 p j) := by
  refine (Ideal.multiReduction_add_single v 0x00000000#32 h hφ hacc (ix1 p)).trans ?_
  refine Finset.sum_congr rfl fun j _ => congrArg v ?_
  funext a
  refine Fin.ext ?_
  match a with
  | ⟨0, _⟩ => rfl
  | ⟨1, _⟩ => rfl

/-- THE STORED BLOCK AT `(p, d)`: the weight of row `p` of the four loaded blocks, times the value block at `(p, d)`. -/
theorem pay_apply (x0 x1 x2 x3 x4 : Vec Ideal S4000x64 .f32) (p : Fin 4000) (d : Fin 64) :
    k0_pay1 x0 x1 x2 x3 x4 (ix2 p d) = weight x0 x1 x2 x3 p * x4 (ix2 p d) := by
  unfold k0_pay1
  dsimp only
  simp only [shapeCast_self]
  rw [mulf_apply, broadcastTo_a1_ab_apply]
  refine congrArg (· * x4 (ix2 p d)) ?_
  rw [mulf_apply]
  unfold weight clampExp
  refine congrArg₂ (· * ·) ?_ ?_
  · -- the score, clamped and exponentiated
    refine congrArg (fun s => Ideal.exp (min (Ideal.ofBits .f32 0x40A00000#32) (max (Ideal.ofBits .f32 0xC0A00000#32) (s * Ideal.ofBits .f32 0x3E000000#32)))) ?_
    refine (shapeCast_a_a1_apply _ _ p (0 : Fin 1)).trans ?_
    refine (rowSum_apply _ _ _ _ p).trans ?_
    unfold score
    refine Finset.sum_congr rfl fun j _ => ?_
    rw [mulf_apply]
  · -- the negative distance, clamped and exponentiated
    refine congrArg (fun s => Ideal.exp (min (Ideal.ofBits .f32 0x40A00000#32) (max (Ideal.ofBits .f32 0xC0A00000#32) (s * Ideal.ofBits .f32 0x3E000000#32)))) ?_
    show Ideal.ofBits .f32 0x00000000#32 - Ideal.sqrt (_ + Ideal.ofBits .f32 0x358637BD#32) = _
    rw [Ideal.ofBits_zero_f32, zero_sub]
    refine congrArg (fun s => -(Ideal.sqrt (s + Ideal.ofBits .f32 0x358637BD#32))) ?_
    refine (shapeCast_a_a1_apply _ _ p (0 : Fin 1)).trans ?_
    refine (rowSum_apply _ _ _ _ p).trans ?_
    unfold sqDist
    refine Finset.sum_congr rfl fun j _ => ?_
    rw [mulf_apply, subf_apply]

end Cert.KernelIdeal.Body

end
-- ==== Proof.KernelBlocks.lean ====
/-
  From blocks to the array. The grid has 250 points; at point `t` every window's block is rows
  `4000·t … 4000·t + 3999` (all 64 columns) of its array, so the block the body stores at `t` is that range of rows of
  ONE table: each edge's value row scaled by the edge's weight, computed from the five gathered tables as the region
  finds them. The 250 blocks tile the million rows, so after the run the output array is that table.
-/
import proofs.«110923_j73418170958215_2_alg».proof.Proof.Gen.KernelIdeal.Frame
import proofs.«110923_j73418170958215_2_alg».proof.Proof.KernelBody
import proofs.«110923_j73418170958215_2_alg».proof.Proof.Spec
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.EdgeMessage

variable (m : (ℓ : Loc nD τ sig) → Buf (Elt Ideal) ℓ)

theorem hz : (![0, 0] : Fin 2 → Nat) = fun _ => 0 := funext fun a => by fin_cases a <;> rfl

/-- Every window's block index at point `t` is `(t, 0)`: decided once over the 250 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Input window 0's block at point `t` is rows `4000·t … 4000·t + 3999` of its array. -/
theorem iblk0_apply (c : Dev nD) (t : Fin cfg0.N) (p : Fin 4000) (j : Fin 64) (e : Fin 1000000) (he : e.val = 4000 * t.val + p.val) :
    (iblk m c 0 t : Vec Ideal S4000x64 .f32) (ix2 p j) = (V m c main_v6 : S1000000x64.Idx → EReal) (ix2 e j) := by
  obtain ⟨h0, h1, -, -, -, -, -, -, -, -, -, -⟩ := idx_facts t
  unfold iblk
  rw [View.read_apply]
  show V m c main_v6 _ = V m c main_v6 _
  refine congrArg (V m c main_v6) ?_
  funext a
  apply Fin.ext
  match a with
  | ⟨0, _⟩ => show win0_0.index t (0 : Fin 2) * 4000 + 1 * p.val = e.val; rw [h0, he]; omega
  | ⟨1, _⟩ => show win0_0.index t (1 : Fin 2) * 64 + 1 * j.val = j.val; rw [h1]; omega

/-- Input window 1's block at point `t` is rows `4000·t … 4000·t + 3999` of its array. -/
theorem iblk1_apply (c : Dev nD) (t : Fin cfg0.N) (p : Fin 4000) (j : Fin 64) (e : Fin 1000000) (he : e.val = 4000 * t.val + p.val) :
    (iblk m c 1 t : Vec Ideal S4000x64 .f32) (ix2 p j) = (V m c main_v13 : S1000000x64.Idx → EReal) (ix2 e j) := by
  obtain ⟨-, -, h0, h1, -, -, -, -, -, -, -, -⟩ := idx_facts t
  unfold iblk
  rw [View.read_apply]
  show V m c main_v13 _ = V m c main_v13 _
  refine congrArg (V m c main_v13) ?_
  funext a
  apply Fin.ext
  match a with
  | ⟨0, _⟩ => show win0_1.index t (0 : Fin 2) * 4000 + 1 * p.val = e.val; rw [h0, he]; omega
  | ⟨1, _⟩ => show win0_1.index t (1 : Fin 2) * 64 + 1 * j.val = j.val; rw [h1]; omega

/-- Input window 2's block at point `t` is rows `4000·t … 4000·t + 3999` of its array. -/
theorem iblk2_apply (c : Dev nD) (t : Fin cfg0.N) (p : Fin 4000) (j : Fin 64) (e : Fin 1000000) (he : e.val = 4000 * t.val + p.val) :
    (iblk m c 2 t : Vec Ideal S4000x64 .f32) (ix2 p j) = (V m c main_v20 : S1000000x64.Idx → EReal) (ix2 e j) := by
  obtain ⟨-, -, -, -, h0, h1, -, -, -, -, -, -⟩ := idx_facts t
  unfold iblk
  rw [View.read_apply]
  show V m c main_v20 _ = V m c main_v20 _
  refine congrArg (V m c main_v20) ?_
  funext a
  apply Fin.ext
  match a with
  | ⟨0, _⟩ => show win0_2.index t (0 : Fin 2) * 4000 + 1 * p.val = e.val; rw [h0, he]; omega
  | ⟨1, _⟩ => show win0_2.index t (1 : Fin 2) * 64 + 1 * j.val = j.val; rw [h1]; omega

/-- Input window 3's block at point `t` is rows `4000·t … 4000·t + 3999` of its array. -/
theorem iblk3_apply (c : Dev nD) (t : Fin cfg0.N) (p : Fin 4000) (j : Fin 64) (e : Fin 1000000) (he : e.val = 4000 * t.val + p.val) :
    (iblk m c 3 t : Vec Ideal S4000x64 .f32) (ix2 p j) = (V m c main_v27 : S1000000x64.Idx → EReal) (ix2 e j) := by
  obtain ⟨-, -, -, -, -, -, h0, h1, -, -, -, -⟩ := idx_facts t
  unfold iblk
  rw [View.read_apply]
  show V m c main_v27 _ = V m c main_v27 _
  refine congrArg (V m c main_v27) ?_
  funext a
  apply Fin.ext
  match a with
  | ⟨0, _⟩ => show win0_3.index t (0 : Fin 2) * 4000 + 1 * p.val = e.val; rw [h0, he]; omega
  | ⟨1, _⟩ => show win0_3.index t (1 : Fin 2) * 64 + 1 * j.val = j.val; rw [h1]; omega

/-- Input window 4's block at point `t` is rows `4000·t … 4000·t + 3999` of its array. -/
theorem iblk4_apply (c : Dev nD) (t : Fin cfg0.N) (p : Fin 4000) (j : Fin 64) (e : Fin 1000000) (he : e.val = 4000 * t.val + p.val) :
    (iblk m c 4 t : Vec Ideal S4000x64 .f32) (ix2 p j) = (V m c main_v35 : S1000000x64.Idx → EReal) (ix2 e j) := by
  obtain ⟨-, -, -, -, -, -, -, -, h0, h1, -, -⟩ := idx_facts t
  unfold iblk
  rw [View.read_apply]
  show V m c main_v35 _ = V m c main_v35 _
  refine congrArg (V m c main_v35) ?_
  funext a
  apply Fin.ext
  match a with
  | ⟨0, _⟩ => show win0_4.index t (0 : Fin 2) * 4000 + 1 * p.val = e.val; rw [h0, he]; omega
  | ⟨1, _⟩ => show win0_4.index t (1 : Fin 2) * 64 + 1 * j.val = j.val; rw [h1]; omega

/-- The table the output array ends holding: the edge messages of the five gathered tables as the region finds them. -/
abbrev table (c : Dev nD) : S1000000x64.Idx → EReal :=
  rows (V m c main_v6 : S1000000x64.Idx → EReal) (V m c main_v13 : S1000000x64.Idx → EReal)
    (V m c main_v20 : S1000000x64.Idx → EReal) (V m c main_v27 : S1000000x64.Idx → EReal)
    (V m c main_v35 : S1000000x64.Idx → EReal)

/-- A stored block's entry is the table's entry `base` rows further down, when each loaded block is its table's rows
    from `base` on. -/
theorem pay_rows (x0 x1 x2 x3 x4 : Vec Ideal S4000x64 .f32) (A B K Q W : S1000000x64.Idx → EReal)
    (y : S4000x64.Idx) (i : S1000000x64.Idx) (base : Nat)
    (hi0 : (i 0).val = base + (y 0).val) (hi1 : (i 1).val = (y 1).val)
    (h0 : ∀ (p : Fin 4000) (j : Fin 64) (e : Fin 1000000), e.val = base + p.val → x0 (ix2 p j) = A (ix2 e j))
    (h1 : ∀ (p : Fin 4000) (j : Fin 64) (e : Fin 1000000), e.val = base + p.val → x1 (ix2 p j) = B (ix2 e j))
    (h2 : ∀ (p : Fin 4000) (j : Fin 64) (e : Fin 1000000), e.val = base + p.val → x2 (ix2 p j) = K (ix2 e j))
    (h3 : ∀ (p : Fin 4000) (j : Fin 64) (e : Fin 1000000), e.val = base + p.val → x3 (ix2 p j) = Q (ix2 e j))
    (h4 : ∀ (p : Fin 4000) (j : Fin 64) (e : Fin 1000000), e.val = base + p.val → x4 (ix2 p j) = W (ix2 e j)) :
    k0_pay1 x0 x1 x2 x3 x4 y = rows A B K Q W i := by
  obtain ⟨p, d, rfl⟩ : ∃ (p : Fin 4000) (d : Fin 64), y = ix2 p d := ⟨y 0, y 1, eq_ix2 y⟩
  obtain ⟨e, d', rfl⟩ : ∃ (e : Fin 1000000) (d' : Fin 64), i = ix2 e d' := ⟨i 0, i 1, eq_ix2 i⟩
  have he : e.val = base + p.val := hi0
  have hd : d' = d := Fin.ext hi1
  rw [hd]
  rw [Cert.KernelIdeal.Body.pay_apply]
  show weight x0 x1 x2 x3 p * x4 (ix2 p d) = weight A B K Q e * W (ix2 e d)
  rw [weight_congr x0 x1 x2 x3 A B K Q p e (fun j => h0 p j e he) (fun j => h1 p j e he) (fun j => h2 p j e he)
    (fun j => h3 p j e he), h4 p d e he]

/-- WHAT POINT `t` WRITES BACK is block `t` of the table. -/
theorem flushed_eq (c : Dev nD) (t : Fin cfg0.N) :
    (dats m 0 c).flushed 5 t = ((cfg0.win 5).blk t).view.read (Elt Ideal) (table m c) := by
  show (cfg0.win 5).cut (grid0.coords t) ((dats m 0 c).after 5 t) = _
  rw [after0_5]
  unfold out0_5
  rw [View.canon_unit_zero hz]
  simp only [View.ld_unit_zero (S := S4000x64) hz]
  obtain ⟨-, -, -, -, -, -, -, -, -, -, h50, h51⟩ := idx_facts t
  funext y
  show k0_pay1 (iblk m c 0 t) (iblk m c 1 t) (iblk m c 2 t) (iblk m c 3 t) (iblk m c 4 t) y
    = table m c (((cfg0.win 5).blk t).view.emb y)
  refine pay_rows _ _ _ _ _ _ _ _ _ _ y _ (4000 * t.val) ?_ ?_ (fun p j e he => iblk0_apply m c t p j e he)
    (fun p j e he => iblk1_apply m c t p j e he) (fun p j e he => iblk2_apply m c t p j e he)
    (fun p j e he => iblk3_apply m c t p j e he) (fun p j e he => iblk4_apply m c t p j e he)
  · show win0_5.index t (0 : Fin 2) * 4000 + 1 * (y 0).val = 4000 * t.val + (y 0).val
    rw [h50]; omega
  · show win0_5.index t (1 : Fin 2) * 64 + 1 * (y 1).val = (y 1).val
    rw [h51]; omega

/-- An index of the array is in point `t`'s block iff each coordinate is in the block's range on its axis. -/
theorem mem_blk (t : Fin cfg0.N) (i : S1000000x64.Idx) :
    i ∈ ((cfg0.win 5).blk t).view.set ↔ ∀ a : Fin 2, win0_5.index t a * S4000x64.size a ≤ (i a).val
      ∧ (i a).val < win0_5.index t a * S4000x64.size a + S4000x64.size a := by
  show i ∈ ((View.whole main_v36).slice (win0_5.rect t)).set ↔ _
  rw [View.set_slice_whole, Rect.mem_set_unit]
  exact Iff.rfl

/-- Row `r` of the array lies in the block of point `r / 4000`: the blocks cover the array. -/
theorem cover (i : S1000000x64.Idx) :
    ∃ t : Fin cfg0.N, (cfg0.win 5).flush t = true ∧ i ∈ ((cfg0.win 5).blk t).view.set := by
  have hi0 : (i 0).val < 1000000 := (i 0).isLt
  have hi1 : (i 1).val < 64 := (i 1).isLt
  have hN : cfg0.N = 250 := N_0
  have hlt : (i 0).val / 4000 < cfg0.N := by rw [hN]; omega
  obtain ⟨-, -, -, -, -, -, -, -, -, -, h50, h51⟩ := idx_facts ⟨(i 0).val / 4000, hlt⟩
  have h50' : win0_5.index ⟨(i 0).val / 4000, hlt⟩ (0 : Fin 2) = (i 0).val / 4000 := h50
  refine ⟨⟨(i 0).val / 4000, hlt⟩, flush0_5 _, ?_⟩
  rw [mem_blk]
  intro a
  match a with
  | ⟨0, _⟩ =>
    show win0_5.index ⟨(i 0).val / 4000, hlt⟩ (0 : Fin 2) * 4000 ≤ (i 0).val
      ∧ (i 0).val < win0_5.index ⟨(i 0).val / 4000, hlt⟩ (0 : Fin 2) * 4000 + 4000
    rw [h50']; omega
  | ⟨1, _⟩ =>
    show win0_5.index ⟨(i 0).val / 4000, hlt⟩ (1 : Fin 2) * 64 ≤ (i 1).val
      ∧ (i 1).val < win0_5.index ⟨(i 0).val / 4000, hlt⟩ (1 : Fin 2) * 64 + 64
    rw [h51]; omega

/-- THE OUTPUT ARRAY after the run is the table. -/
theorem final (c : Dev nD) : (dats m 0 c).arrAt 5 cfg0.N = table m c :=
  (dats m 0 c).arrAt_eq_of_cover 5 (table m c) (fun t _ => flushed_eq m c t) cover

end Cert.KernelIdeal.Blocks

end
-- ==== Proof.KernelIndex.lean ====
/-
  The column of row numbers a node-id array gives a gather: each id below zero moved up by the node count 50000 (the
  wrap-around of a negative index), the ids then laid out as a column `[1000000, 1]`. Both programs compute it with the
  same four operations before every gather, so it is named once.
-/
import proofs.«110923_j73418170958215_2_alg».proof.Proof.Gen.KernelIdeal

noncomputable section

namespace Cert.KernelIdeal.Hand

open Cert.KernelIdeal Cert.KernelIdeal.Gen Idealize.ShloMosaic

variable {F : FTy → Type} [FloatOps F]

/-- The start-index column of a node-id array. -/
def rowIdx (x : (⟨S1000000, .i32⟩ : BufTy).Contents (Elt F)) : (⟨S1000000x1, .i32⟩ : BufTy).Contents (Elt F) :=
  broadcastInDim S1000000x1 ![0] bcast_S1000000_S1000000x1_0
    (select (cmpi .slt x (broadcastInDim S1000000 ![] bcast_S_S1000000 (constantI S_ 32 0#32)))
      (addi x (broadcastInDim S1000000 ![] bcast_S_S1000000 (constantI S_ 32 50000#32))) x)

end Cert.KernelIdeal.Hand

end
-- ==== Proof.KernelArrayA.lean ====
/-
  What the region finds in `main_v6`: the geometry rows of the edges' sources, gathered by the host operations before the region from the launch
  memory.
-/
import proofs.«110923_j73418170958215_2_alg».proof.Proof.Gen.KernelIdeal.Frame
import proofs.«110923_j73418170958215_2_alg».proof.Proof.KernelIndex
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- `main_v6` as the region finds it: the rows of `main_arg0` the ids `main_arg4` select. -/
theorem V_A (c : Dev nD) : V m c main_v6 = Host.gather gather_S50000x64_S1000000x1_S1000000x64_1_0_n_n_0_1_164
    (m ((c : Thread nD τ).loc main_arg0)) (rowIdx (F := F) (m ((c : Thread nD τ).loc main_arg4))) := by
  show StableHlo.after hostOps0 (fun b => m (c, b)) (Proc.devRef .tc main_v6) = _
  after_results
  rfl

end Cert.KernelIdeal.Hand

end
-- ==== Proof.KernelArrayB.lean ====
/-
  What the region finds in `main_v13`: the geometry rows of the edges' targets, gathered by the host operations before the region from the launch
  memory.
-/
import proofs.«110923_j73418170958215_2_alg».proof.Proof.Gen.KernelIdeal.Frame
import proofs.«110923_j73418170958215_2_alg».proof.Proof.KernelIndex
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 2000000 in
/-- `main_v13` as the region finds it: the rows of `main_arg0` the ids `main_arg5` select. -/
theorem V_B (c : Dev nD) : V m c main_v13 = Host.gather gather_S50000x64_S1000000x1_S1000000x64_1_0_n_n_0_1_164
    (m ((c : Thread nD τ).loc main_arg0)) (rowIdx (F := F) (m ((c : Thread nD τ).loc main_arg5))) := by
  show StableHlo.after hostOps0 (fun b => m (c, b)) (Proc.devRef .tc main_v13) = _
  after_results
  rfl

end Cert.KernelIdeal.Hand

end
-- ==== Proof.KernelArrayK.lean ====
/-
  What the region finds in `main_v20`: the key rows of the edges' sources, gathered by the host operations before the region from the launch
  memory.
-/
import proofs.«110923_j73418170958215_2_alg».proof.Proof.Gen.KernelIdeal.Frame
import proofs.«110923_j73418170958215_2_alg».proof.Proof.KernelIndex
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 2000000 in
/-- `main_v20` as the region finds it: the rows of `main_arg1` the ids `main_arg4` select. -/
theorem V_K (c : Dev nD) : V m c main_v20 = Host.gather gather_S50000x64_S1000000x1_S1000000x64_1_0_n_n_0_1_164
    (m ((c : Thread nD τ).loc main_arg1)) (rowIdx (F := F) (m ((c : Thread nD τ).loc main_arg4))) := by
  show StableHlo.after hostOps0 (fun b => m (c, b)) (Proc.devRef .tc main_v20) = _
  after_results
  rfl

end Cert.KernelIdeal.Hand

end
-- ==== Proof.KernelArrayQ.lean ====
/-
  What the region finds in `main_v27`: the query rows of the edges' targets, gathered by the host operations before the region from the launch
  memory.
-/
import proofs.«110923_j73418170958215_2_alg».proof.Proof.Gen.KernelIdeal.Frame
import proofs.«110923_j73418170958215_2_alg».proof.Proof.KernelIndex
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 2000000 in
/-- `main_v27` as the region finds it: the rows of `main_arg2` the ids `main_arg5` select. -/
theorem V_Q (c : Dev nD) : V m c main_v27 = Host.gather gather_S50000x64_S1000000x1_S1000000x64_1_0_n_n_0_1_164
    (m ((c : Thread nD τ).loc main_arg2)) (rowIdx (F := F) (m ((c : Thread nD τ).loc main_arg5))) := by
  show StableHlo.after hostOps0 (fun b => m (c, b)) (Proc.devRef .tc main_v27) = _
  after_results
  rfl

end Cert.KernelIdeal.Hand

end
-- ==== Proof.KernelArrayW.lean ====
/-
  What the region finds in `main_v35`: the value rows of the edges' sources. The value table arrives as `[50000, 1, 64]`;
  the host drops its unit axis (a reshape to `[50000, 64]`) and gathers rows of that.
-/
import proofs.«110923_j73418170958215_2_alg».proof.Proof.Gen.KernelIdeal.Frame
import proofs.«110923_j73418170958215_2_alg».proof.Proof.KernelIndex
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 2000000 in
/-- `main_v35` as the region finds it: the rows of the reshaped `main_arg3` the ids `main_arg4` select. -/
theorem V_W (c : Dev nD) : V m c main_v35 = Host.gather gather_S50000x64_S1000000x1_S1000000x64_1_0_n_n_0_1_164
    (shapeCast S50000x64 (m ((c : Thread nD τ).loc main_arg3)) shapeCasts_S50000x1x64_S50000x64)
    (rowIdx (F := F) (m ((c : Thread nD τ).loc main_arg4))) := by
  show StableHlo.after hostOps0 (fun b => m (c, b)) (Proc.devRef .tc main_v35) = _
  after_results
  refine congrArg (fun x => Host.gather gather_S50000x64_S1000000x1_S1000000x64_1_0_n_n_0_1_164 x (rowIdx (F := F) (m ((c : Thread nD τ).loc main_arg4)))) ?_
  funext i
  rfl

end Cert.KernelIdeal.Hand

end
-- ==== Proof.KernelValue.lean ====
/-
  The kernel program's result. The region leaves the output array at the table of edge messages computed from the five
  gathered tables as the region finds them; those are the rows of the launch arrays the node ids select; and the one
  host operation after the region re-lays the `[1000000, 64]` table as `[1000000, 1, 64]`, entry `(e, u, d)` from `(e, d)`.
  So the program ends with the edge message array of the gathered launch tables, its arguments unchanged.
-/
import proofs.«110923_j73418170958215_2_alg».proof.Proof.Gen.KernelIdeal.Frame
import proofs.«110923_j73418170958215_2_alg».proof.Proof.KernelBlocks
import proofs.«110923_j73418170958215_2_alg».proof.Proof.KernelArrayA
import proofs.«110923_j73418170958215_2_alg».proof.Proof.KernelArrayB
import proofs.«110923_j73418170958215_2_alg».proof.Proof.KernelArrayK
import proofs.«110923_j73418170958215_2_alg».proof.Proof.KernelArrayQ
import proofs.«110923_j73418170958215_2_alg».proof.Proof.KernelArrayW
import proofs.«110923_j73418170958215_2_alg».proof.Proof.Spec
import Idealize.ShloMosaic.Lib.Pipeline.Value
import Idealize.ShloMosaic.Lib.StableHlo.Run
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx Cert.EdgeMessage

variable (m : (ℓ : Loc nD τ sig) → Buf (Elt Ideal) ℓ) (ρ : Dev nD → PrngReg)

/-- The rows of a launch table that a launch id array selects. -/
abbrev gathered (x : (⟨S50000x64, .f32⟩ : BufTy).Contents (Elt Ideal)) (ids : (⟨S1000000, .i32⟩ : BufTy).Contents (Elt Ideal)) :
    S1000000x64.Idx → EReal :=
  Host.gather gather_S50000x64_S1000000x1_S1000000x64_1_0_n_n_0_1_164 x (rowIdx (F := Ideal) ids)

/-- THE RESULT: the edge messages of the gathered launch tables — geometry by source and by target, keys by source,
    queries by target, values (their unit axis dropped) by source. -/
def result (c : Dev nD) : Buf (Elt Ideal) ((c : Thread nD τ).loc main_v37) :=
  message (gathered (m ((c : Thread nD τ).loc main_arg0)) (m ((c : Thread nD τ).loc main_arg4)))
    (gathered (m ((c : Thread nD τ).loc main_arg0)) (m ((c : Thread nD τ).loc main_arg5)))
    (gathered (m ((c : Thread nD τ).loc main_arg1)) (m ((c : Thread nD τ).loc main_arg4)))
    (gathered (m ((c : Thread nD τ).loc main_arg2)) (m ((c : Thread nD τ).loc main_arg5)))
    (gathered (shapeCast S50000x64 (m ((c : Thread nD τ).loc main_arg3)) shapeCasts_S50000x1x64_S50000x64)
      (m ((c : Thread nD τ).loc main_arg4)))

/-- The table the region leaves, over the launch arrays. -/
theorem table_eq (c : Dev nD) : Blocks.table m c
    = rows (gathered (m ((c : Thread nD τ).loc main_arg0)) (m ((c : Thread nD τ).loc main_arg4)))
        (gathered (m ((c : Thread nD τ).loc main_arg0)) (m ((c : Thread nD τ).loc main_arg5)))
        (gathered (m ((c : Thread nD τ).loc main_arg1)) (m ((c : Thread nD τ).loc main_arg4)))
        (gathered (m ((c : Thread nD τ).loc main_arg2)) (m ((c : Thread nD τ).loc main_arg5)))
        (gathered (shapeCast S50000x64 (m ((c : Thread nD τ).loc main_arg3)) shapeCasts_S50000x1x64_S50000x64)
          (m ((c : Thread nD τ).loc main_arg4))) := by
  unfold Blocks.table
  rw [V_A m c, V_B m c, V_K m c, V_Q m c, V_W m c]

/-- The table re-laid with a unit middle axis is the message array. -/
theorem relaid_eq {n : Nat} (a b k q v : (⟨2, ![n, 64]⟩ : Shape).Idx → EReal)
    (h : (⟨2, ![n, 64]⟩ : Shape).BroadcastsInDim ⟨3, ![n, 1, 64]⟩ (![0, 2] : Fin 2 → Fin 3)) (hn : n ≠ 1) :
    broadcastInDim ⟨3, ![n, 1, 64]⟩ ![0, 2] h (rows a b k q v) = message a b k q v := by
  funext i
  refine (broadcastInDim_apply _ h _ i (ix2 (i 0) (i 2)) fun ax => ?_).trans rfl
  match ax with
  | ⟨0, _⟩ => show (i 0).val = if n = 1 then 0 else (i 0).val; rw [if_neg hn]
  | ⟨1, _⟩ => show (i 2).val = if (64 : Nat) = 1 then 0 else (i 2).val; rw [if_neg (by decide)]

/-- What the host line after the region leaves in the result buffer. -/
theorem tail_eq (c : Dev nD) :
    Pipeline.afterTail₀ cfgs (dats m) 0 (V0 m) [hostOps1] c main_v37 = result m c := by
  unfold Pipeline.afterTail₀
  show StableHlo.after hostOps1 _ (Proc.devRef .tc main_v37) = _
  after_results
  rw [show Pipeline.withArrays (cfgs 0).spec c (V0 m c) (fun w => (dats m 0 c).arrAt w (cfgs 0).N) (Proc.devRef .tc main_v36)
      = Blocks.table m c from (Pipeline.withArrays_arr spec0 launch0.win.arr_inj c _ _ 5).trans (Blocks.final m c),
    table_eq]
  exact relaid_eq _ _ _ _ _ bcast_S1000000x64_S1000000x1x64_0_2 (by decide)

/-- THE RUN, READ: every weakly fair execution ends with the result buffer at `result` and the arguments unchanged. -/
theorem run : θ_run defs (onTc (τ := τ) (main (F := Ideal))) ⟨m, fun _ => 0, ρ⟩ fun r => ∀ c : Dev nD,
      r.2.mem ((c : Thread nD τ).loc main_v37) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v37 (Pipeline.mem_restRefs_of main_v37 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Hand

end
-- ==== Proof.RefValue.lean ====
/-
  The reference, read entry by entry. Its result at `(e, u, d)` is the product of the edge's weight and the gathered
  value row at `(e, u, d)`. The weight is the row product of the gathered key and query rows, scaled, clamped and
  exponentiated, times the negative distance of the gathered geometry rows, scaled, clamped and exponentiated; each row
  sum is the host's reduction from a zero start. So the result is the edge message of the five gathered tables, the
  value table read through its unit middle axis. The host negates the root where the kernel subtracts it from zero, and
  starts each sum from the zero word; over the extended reals neither is a difference.
-/
import proofs.«110923_j73418170958215_2_alg».proof.Proof.Gen.ReferenceIdeal.Read
import proofs.«110923_j73418170958215_2_alg».proof.Proof.Spec
import Idealize.ShloMosaic.PureOps.Ideal.Laws
import Idealize.ShloMosaic.Lib.ValueIdx

noncomputable section

open scoped BigOperators

namespace Cert.ReferenceIdeal.Hand

open Cert.ReferenceIdeal Cert.ReferenceIdeal.Gen Cert.ReferenceIdeal.Read Idealize.ShloMosaic Idealize.ShloMosaic.ValueIdx Cert.EdgeMessage

variable (x0 x1 x2 : (⟨S50000x64, .f32⟩ : BufTy).Contents (Elt Ideal)) (x3 : (⟨S50000x1x64, .f32⟩ : BufTy).Contents (Elt Ideal))
  (x4 x5 : (⟨S1000000, .i32⟩ : BufTy).Contents (Elt Ideal))

/-- The host's sum of the key–query products of edge `e`, from its zero start, is the edge's score. -/
theorem score_row (e : Fin 1000000) :
    val_main_v40 (F := Ideal) x1 x2 x4 x5 (ix1 e) = score (val_main_v31 (F := Ideal) x1 x4) (val_main_v38 (F := Ideal) x2 x5) e := by
  rw [val_main_v40_apply, val_main_cst_11_apply]
  unfold score
  rw [Ideal.ofBits_def, Ideal.ofBits_zero_f32, zero_add]
  refine Finset.sum_congr rfl fun j _ => ?_
  have hj : idx_main_v40 (ix1 e) j = ix2 e j :=
    funext fun a => Fin.ext (by match a with | ⟨0, _⟩ => rfl | ⟨1, _⟩ => rfl)
  rw [hj, val_main_v39_apply]
  generalize val_main_v31 (F := Ideal) x1 x4 = K
  generalize val_main_v38 (F := Ideal) x2 x5 = Q
  rfl

/-- The host's sum of the squared geometry differences of edge `e`, from its zero start, is the squared distance. -/
theorem sqDist_row (e : Fin 1000000) :
    val_main_v16 (F := Ideal) x0 x4 x5 (ix1 e) = sqDist (val_main_v6 (F := Ideal) x0 x4) (val_main_v13 (F := Ideal) x0 x5) e := by
  rw [val_main_v16_apply, val_main_cst_apply]
  unfold sqDist
  rw [Ideal.ofBits_def, Ideal.ofBits_zero_f32, zero_add]
  refine Finset.sum_congr rfl fun j _ => ?_
  have hj : idx_main_v16 (ix1 e) j = ix2 e j :=
    funext fun a => Fin.ext (by match a with | ⟨0, _⟩ => rfl | ⟨1, _⟩ => rfl)
  rw [hj, val_main_v15_apply, val_main_v14_apply]
  generalize val_main_v6 (F := Ideal) x0 x4 = A
  generalize val_main_v13 (F := Ideal) x0 x5 = B
  rfl

/-- The exponentiated clamp of the scaled score. -/
theorem scoreExp_row (e : Fin 1000000) :
    val_main_v44 (F := Ideal) x1 x2 x4 x5 (ix1 e)
      = clampExp (score (val_main_v31 (F := Ideal) x1 x4) (val_main_v38 (F := Ideal) x2 x5) e) := by
  rw [val_main_v44_apply, val_main_v43_apply, val_main_call1_v4_apply, val_main_call1_v3_apply, val_main_cst_14_apply,
    val_main_call1_v2_apply, val_main_call1_v1_apply, val_main_call1_v0_apply, val_main_cst_13_apply,
    val_main_v42_apply, val_main_v41_apply, val_main_cst_12_apply, score_row]
  generalize score (val_main_v31 (F := Ideal) x1 x4) (val_main_v38 (F := Ideal) x2 x5) e = s
  rfl

/-- The exponentiated clamp of the scaled negative distance. -/
theorem distExp_row (e : Fin 1000000) :
    val_main_v24 (F := Ideal) x0 x4 x5 (ix1 e)
      = clampExp (-(Ideal.sqrt (sqDist (val_main_v6 (F := Ideal) x0 x4) (val_main_v13 (F := Ideal) x0 x5) e
          + Ideal.ofBits .f32 0x358637BD#32))) := by
  rw [val_main_v24_apply, val_main_v23_apply, val_main_call0_v4_apply, val_main_call0_v3_apply, val_main_cst_6_apply,
    val_main_call0_v2_apply, val_main_call0_v1_apply, val_main_call0_v0_apply, val_main_cst_5_apply,
    val_main_v22_apply, val_main_v21_apply, val_main_cst_4_apply, val_main_v20_apply, val_main_v19_apply,
    val_main_v18_apply, val_main_v17_apply, val_main_cst_3_apply, sqDist_row]
  generalize sqDist (val_main_v6 (F := Ideal) x0 x4) (val_main_v13 (F := Ideal) x0 x5) e = s
  rfl

/-- The host's weight of edge `e`. -/
theorem weight_row (e : Fin 1000000) :
    val_main_v45 (F := Ideal) x0 x1 x2 x4 x5 (ix1 e)
      = weight (val_main_v6 (F := Ideal) x0 x4) (val_main_v13 (F := Ideal) x0 x5) (val_main_v31 (F := Ideal) x1 x4)
          (val_main_v38 (F := Ideal) x2 x5) e := by
  rw [val_main_v45_apply, scoreExp_row, distExp_row]
  rfl

/-- The gathered value rows as an `[edges, 64]` table: the `[edges, 1, 64]` gather read through its unit axis. -/
def valueRows : S1000000x64.Idx → EReal :=
  fun i => val_main_v53 (F := Ideal) x3 x4 (ix3 (i 0) (0 : Fin 1) (i 1))

/-- THE REFERENCE'S RESULT is the edge message of its five gathered tables. -/
theorem result_eq :
    val_main_v55 (F := Ideal) x0 x1 x2 x3 x4 x5
      = message (val_main_v6 (F := Ideal) x0 x4) (val_main_v13 (F := Ideal) x0 x5) (val_main_v31 (F := Ideal) x1 x4)
          (val_main_v38 (F := Ideal) x2 x5) (valueRows x3 x4) := by
  funext i
  obtain ⟨e, u, d, rfl⟩ : ∃ (e : Fin 1000000) (u : Fin 1) (d : Fin 64), i = ix3 e u d := ⟨i 0, i 1, i 2, eq_ix3 i⟩
  obtain rfl : u = 0 := Subsingleton.elim _ _
  have hrow : idx_main_v46 (idx_main_v54 (ix3 e (0 : Fin 1) d)) = ix1 e :=
    funext fun a => Fin.ext (by match a with | ⟨0, _⟩ => rfl)
  rw [val_main_v55_apply, val_main_v54_apply, val_main_v46_apply, hrow, weight_row]
  unfold message valueRows
  generalize weight (val_main_v6 (F := Ideal) x0 x4) (val_main_v13 (F := Ideal) x0 x5) (val_main_v31 (F := Ideal) x1 x4)
          (val_main_v38 (F := Ideal) x2 x5) = wt
  generalize val_main_v53 (F := Ideal) x3 x4 = W
  rfl

end Cert.ReferenceIdeal.Hand

end
-- ==== Proof.LibRowGather.lean ====
/-
  A row gather read at an index: what `x[idx]` of a table `x : [N, D]` at a column of row numbers `idx : [E, 1]` is, and
  the same of a table with a unit middle axis `x : [N, 1, D]`. Result row `e` is the table's row at the start index
  `idx[e, 0]`, read as a signed integer and clamped into `[0, N − 1]` (every start index of a gather is clamped so that
  the slice fits); the other coordinates pass through. So the two tables, one the other with its unit axis dropped,
  gather the same numbers.
-/
import Idealize.ShloMosaic.Lib.ValueIdx
import Idealize.ShloMosaic.Lib.Pipeline.Value

noncomputable section

namespace Cert.LibRowGather

open Idealize.ShloMosaic Idealize.ShloMosaic.ValueIdx

variable {α : Type}

/-- The dimension numbers of a gather of whole rows of an `[N, D]` table at a column `[E, 1]` of row numbers. -/
abbrev rowsDims (N D E : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index selects: read signed, clamped into the table. -/
abbrev rowOf {E w : Nat} (N : Nat) (hN : 0 < N) (idx : IVec ⟨2, ![E, 1]⟩ w) (e : Fin E) : Fin N :=
  ⟨min (idx (ix2 e (0 : Fin 1))).toInt.toNat (N - 1), by omega⟩

/-- THE ROW GATHER READ AT `(e, k)`: the table at the selected row, column `k`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowsDims N D E wf) x idx (ix2 e k) = x (ix2 (rowOf N hN idx e) k) := by
  unfold Host.gather
  refine congrArg x ?_
  funext a
  refine Fin.ext ?_
  match a with
  | ⟨0, _⟩ =>
    show (rowsDims N D E wf).start (ix2 e k) idx 0 + (rowsDims N D E wf).batchCoord (ix2 e k) 0
      + (rowsDims N D E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D E wf).startIndexMap from List.mem_singleton.mpr rfl)]
    have hsi : (rowsDims N D E wf).siIdx (ix2 e k) ⟨List.idxOf (0 : Fin 2) (rowsDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N D E wf).start (ix2 e k) idx 1 + (rowsDims N D E wf).batchCoord (ix2 e k) 1
      + (rowsDims N D E wf).offCoord (ix2 e k) 1 = k.val
    rw [GatherDims.batchCoord_eq_zero _ _ _ List.not_mem_nil]
    unfold GatherDims.start
    rw [dif_neg (show (1 : Fin 2) ∉ [(0 : Fin 2)] from by decide)]
    simp only [Nat.add_zero, Nat.zero_add]
    unfold GatherDims.offCoord
    rw [dif_pos ((GatherDims.mem_sKept _ _).mpr ⟨(show (1 : Fin 2) ∉ [(0 : Fin 2)] from by decide), List.not_mem_nil⟩)]
    rfl

/-- The dimension numbers of a gather of whole rows of an `[N, 1, D]` table at a column `[E, 1]` of row numbers. -/
abbrev rowsDims3 (N D E : Nat) (wf : GatherDims.WF ⟨3, ![N, 1, D]⟩ ⟨2, ![E, 1]⟩ ⟨3, ![E, 1, D]⟩ [1, 2] [0] [] [0] [] 1 ![1, 1, D]) :
    GatherDims ⟨3, ![N, 1, D]⟩ ⟨2, ![E, 1]⟩ ⟨3, ![E, 1, D]⟩ where
  offsetDims := [1, 2]
  collapsedSliceDims := [0]
  operandBatchingDims := []
  startIndicesBatchingDims := []
  startIndexMap := [0]
  indexVectorDim := 1
  sliceSizes := ![1, 1, D]
  wf := wf

/-- THE ROW GATHER OF A TABLE WITH A UNIT MIDDLE AXIS READ AT `(e, u, k)`: the table at the selected row, `(0, k)`. -/
theorem gather_rows3_apply {N D E w : Nat} (hN : 0 < N)
    (wf : GatherDims.WF ⟨3, ![N, 1, D]⟩ ⟨2, ![E, 1]⟩ ⟨3, ![E, 1, D]⟩ [1, 2] [0] [] [0] [] 1 ![1, 1, D])
    (x : (⟨3, ![N, 1, D]⟩ : Shape).Idx → α) (idx : IVec ⟨2, ![E, 1]⟩ w) (e : Fin E) (u : Fin 1) (k : Fin D) :
    Host.gather (rowsDims3 N D E wf) x idx (ix3 e u k) = x (ix3 (rowOf N hN idx e) (0 : Fin 1) k) := by
  unfold Host.gather
  refine congrArg x ?_
  funext a
  refine Fin.ext ?_
  match a with
  | ⟨0, _⟩ =>
    show (rowsDims3 N D E wf).start (ix3 e u k) idx 0 + (rowsDims3 N D E wf).batchCoord (ix3 e u k) 0
      + (rowsDims3 N D E wf).offCoord (ix3 e u k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowsDims3 N D E wf).startIndexMap from List.mem_singleton.mpr rfl)]
    have hsi : (rowsDims3 N D E wf).siIdx (ix3 e u k) ⟨List.idxOf (0 : Fin 3) (rowsDims3 N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims3 N D E wf).start (ix3 e u k) idx 1 + (rowsDims3 N D E wf).batchCoord (ix3 e u k) 1
      + (rowsDims3 N D E wf).offCoord (ix3 e u k) 1 = 0
    rw [GatherDims.batchCoord_eq_zero _ _ _ List.not_mem_nil]
    unfold GatherDims.start
    rw [dif_neg (show (1 : Fin 3) ∉ [(0 : Fin 3)] from by decide)]
    simp only [Nat.add_zero, Nat.zero_add]
    unfold GatherDims.offCoord
    rw [dif_pos ((GatherDims.mem_sKept _ _).mpr ⟨(show (1 : Fin 3) ∉ [(0 : Fin 3)] from by decide), List.not_mem_nil⟩)]
    show u.val = 0
    omega
  | ⟨2, _⟩ =>
    show (rowsDims3 N D E wf).start (ix3 e u k) idx 2 + (rowsDims3 N D E wf).batchCoord (ix3 e u k) 2
      + (rowsDims3 N D E wf).offCoord (ix3 e u k) 2 = k.val
    rw [GatherDims.batchCoord_eq_zero _ _ _ List.not_mem_nil]
    unfold GatherDims.start
    rw [dif_neg (show (2 : Fin 3) ∉ [(0 : Fin 3)] from by decide)]
    simp only [Nat.add_zero, Nat.zero_add]
    unfold GatherDims.offCoord
    rw [dif_pos ((GatherDims.mem_sKept _ _).mpr ⟨(show (2 : Fin 3) ∉ [(0 : Fin 3)] from by decide), List.not_mem_nil⟩)]
    rfl

/-- An `[a, 1, c]` array with its unit middle axis dropped reads, at `(r, d)`, the operand at `(r, 0, d)`: row-major, both
    sit at `r · c + d`. -/
theorem shapeCast_a1c_ac_apply {a c : ℕ} (x : (⟨3, ![a, 1, c]⟩ : Shape).Idx → α)
    (h : (⟨3, ![a, 1, c]⟩ : Shape).ShapeCasts ⟨2, ![a, c]⟩) (r : Fin a) (d : Fin c) :
    shapeCast ⟨2, ![a, c]⟩ x h (ix2 r d) = x (ix3 r (0 : Fin 1) d) :=
  shapeCast_apply x h _ _ (by
    rw [Shape.rowMajor_val_two, Shape.rowMajor_val_three]
    show (r.val * 1 + 0) * c + d.val = r.val * c + d.val
    rw [Nat.mul_one, Nat.add_zero])

/-- SO THE TWO GATHERS AGREE: rows gathered from the `[N, 1, D]` table, read at `(e, u, k)`, are the rows gathered from the
    table with its unit axis dropped, read at `(e, k)`. -/
theorem gather_rows3_eq_rows {N D E w : Nat} (hN : 0 < N)
    (wf : GatherDims.WF ⟨2, ![N, D]⟩ ⟨2, ![E, 1]⟩ ⟨2, ![E, D]⟩ [1] [0] [] [0] [] 1 ![1, D])
    (wf3 : GatherDims.WF ⟨3, ![N, 1, D]⟩ ⟨2, ![E, 1]⟩ ⟨3, ![E, 1, D]⟩ [1, 2] [0] [] [0] [] 1 ![1, 1, D])
    (x : (⟨3, ![N, 1, D]⟩ : Shape).Idx → α) (hc : (⟨3, ![N, 1, D]⟩ : Shape).ShapeCasts ⟨2, ![N, D]⟩)
    (idx : IVec ⟨2, ![E, 1]⟩ w) (e : Fin E) (u : Fin 1) (k : Fin D) :
    Host.gather (rowsDims3 N D E wf3) x idx (ix3 e u k)
      = Host.gather (rowsDims N D E wf) (shapeCast ⟨2, ![N, D]⟩ x hc) idx (ix2 e k) := by
  rw [gather_rows3_apply hN, gather_rows_apply hN, shapeCast_a1c_ac_apply]

end Cert.LibRowGather

end
-- ==== Proof.Bridge.lean ====
/-
  The two programs gather the same tables. Both turn a node-id array into the same column of row numbers, and four of the
  five gathers are the same operation on the same table. The fifth differs in layout only: the kernel program drops the
  value table's unit axis and gathers rows of `[50000, 64]`, the reference gathers rows of `[50000, 1, 64]`; a gathered
  row is the table's row at the clamped row number either way, so the two read the same numbers. Hence the two results,
  each the edge message array of its gathered tables, are one array.
-/
import proofs.«110923_j73418170958215_2_alg».proof.Proof.KernelValue
import proofs.«110923_j73418170958215_2_alg».proof.Proof.RefValue
import proofs.«110923_j73418170958215_2_alg».proof.Proof.LibRowGather
import proofs.«110923_j73418170958215_2_alg».proof.Proof.Spec

noncomputable section

namespace Cert.Bridge

open Idealize.ShloMosaic Idealize.ShloMosaic.ValueIdx Cert.EdgeMessage Cert.LibRowGather

variable (x0 x1 x2 : (⟨Cert.KernelIdeal.S50000x64, .f32⟩ : BufTy).Contents (Elt Ideal))
  (x3 : (⟨Cert.KernelIdeal.S50000x1x64, .f32⟩ : BufTy).Contents (Elt Ideal))
  (x4 x5 : (⟨Cert.KernelIdeal.S1000000, .i32⟩ : BufTy).Contents (Elt Ideal))

/-- The reference's gathered value rows are the kernel program's. -/
theorem valueRows_eq :
    Cert.ReferenceIdeal.Hand.valueRows x3 x4
      = Cert.KernelIdeal.Hand.gathered (shapeCast Cert.KernelIdeal.S50000x64 x3 Cert.KernelIdeal.Gen.shapeCasts_S50000x1x64_S50000x64) x4 := by
  funext i
  obtain ⟨e, d, rfl⟩ : ∃ (e : Fin 1000000) (d : Fin 64), i = ix2 e d := ⟨i 0, i 1, eq_ix2 i⟩
  show Host.gather (rowsDims3 50000 64 1000000 Cert.ReferenceIdeal.Gen.gather_S50000x1x64_S1000000x1_S1000000x1x64_12_0_n_n_0_1_1164_wf) x3
      (Cert.KernelIdeal.Hand.rowIdx (F := Ideal) x4) (ix3 e (0 : Fin 1) d)
    = Host.gather (rowsDims 50000 64 1000000 Cert.KernelIdeal.Gen.gather_S50000x64_S1000000x1_S1000000x64_1_0_n_n_0_1_164_wf)
      (shapeCast (⟨2, ![50000, 64]⟩ : Shape) x3 Cert.KernelIdeal.Gen.shapeCasts_S50000x1x64_S50000x64)
      (Cert.KernelIdeal.Hand.rowIdx (F := Ideal) x4) (ix2 e d)
  exact gather_rows3_eq_rows (by decide) _ _ x3 _ _ e (0 : Fin 1) d

/-- THE TWO RESULTS ARE ONE ARRAY. -/
theorem result_eq :
    message (Cert.ReferenceIdeal.Read.val_main_v6 (F := Ideal) x0 x4) (Cert.ReferenceIdeal.Read.val_main_v13 (F := Ideal) x0 x5)
        (Cert.ReferenceIdeal.Read.val_main_v31 (F := Ideal) x1 x4) (Cert.ReferenceIdeal.Read.val_main_v38 (F := Ideal) x2 x5)
        (Cert.ReferenceIdeal.Hand.valueRows x3 x4)
      = message (Cert.KernelIdeal.Hand.gathered x0 x4) (Cert.KernelIdeal.Hand.gathered x0 x5)
        (Cert.KernelIdeal.Hand.gathered x1 x4) (Cert.KernelIdeal.Hand.gathered x2 x5)
        (Cert.KernelIdeal.Hand.gathered (shapeCast Cert.KernelIdeal.S50000x64 x3 Cert.KernelIdeal.Gen.shapeCasts_S50000x1x64_S50000x64) x4) := by
  rw [valueRows_eq]
  rfl

end Cert.Bridge

end
-- ==== Proof.lean ====
/-
  The certificate of the relative-position edge message kernel against its jnp reference, over the extended reals.

  Both programs gather, for each of a million edges, the source's and the target's geometry rows, the source's key row,
  the target's query row and the source's value row (64 numbers each) out of 50000-row node tables, and return

      message(e, 0, d) = exp(clamp(score_e / 8)) · exp(clamp(−dist_e / 8)) · value(src_e, d),
      score_e = Σ_j key(src_e, j) · query(dst_e, j),   dist_e = √(Σ_j (geom(src_e, j) − geom(dst_e, j))² + ε),

  the clamp to [−5, 5]. The kernel program gathers on the host, runs the arithmetic on 250 blocks of 4000 edges with the
  row sums as lane reductions, and re-lays its `[edges, 64]` output as `[edges, 1, 64]`; the reference is the same
  arithmetic on whole arrays. The two differ only in layout (a unit axis dropped before a gather, a column kept by the row
  sums, the tiling), in how the root is negated (`0 − √` against `−√`) and in the row sums' zero start — none a
  difference over the extended reals, and none needs the inputs finite, so the precondition is never opened.

  The frames of the two kernel programs are the generated ones; the reference's is its generated run with the result
  dropped; the ideal pass rewrote nothing, so `preserves` is trivial.
-/
import proofs.«110923_j73418170958215_2_alg».proof.Defs
import proofs.«110923_j73418170958215_2_alg».proof.Proof.Gen.Kernel
import proofs.«110923_j73418170958215_2_alg».proof.Proof.Gen.Kernel.Skeleton
import proofs.«110923_j73418170958215_2_alg».proof.Proof.Gen.Kernel.Launch
import proofs.«110923_j73418170958215_2_alg».proof.Proof.Gen.Kernel.Points
import proofs.«110923_j73418170958215_2_alg».proof.Proof.Gen.Kernel.Frame
import proofs.«110923_j73418170958215_2_alg».proof.Proof.Gen.KernelIdeal
import proofs.«110923_j73418170958215_2_alg».proof.Proof.Gen.KernelIdeal.Skeleton
import proofs.«110923_j73418170958215_2_alg».proof.Proof.Gen.KernelIdeal.Launch
import proofs.«110923_j73418170958215_2_alg».proof.Proof.Gen.KernelIdeal.Points
import proofs.«110923_j73418170958215_2_alg».proof.Proof.Gen.KernelIdeal.Frame
import proofs.«110923_j73418170958215_2_alg».proof.Proof.Gen.ReferenceIdeal
import proofs.«110923_j73418170958215_2_alg».proof.Proof.Gen.ReferenceIdeal.Run
import proofs.«110923_j73418170958215_2_alg».proof.Proof.Gen.ReferenceIdeal.Read
import proofs.«110923_j73418170958215_2_alg».proof.Proof.Gen.Pre_finite_inputs
import proofs.«110923_j73418170958215_2_alg».proof.Proof.KernelValue
import proofs.«110923_j73418170958215_2_alg».proof.Proof.RefValue
import proofs.«110923_j73418170958215_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the edge message array of the gathered tables. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, Cert.ReferenceIdeal.Hand.result_eq, (hagree c).1, (hagree c).2.1,
    (hagree c).2.2.1, (hagree c).2.2.2.1, (hagree c).2.2.2.2.1, (hagree c).2.2.2.2.2]
  exact Cert.Bridge.result_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
